-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x16 : Shape := ⟨2, ![256, 16]⟩
abbrev S16 : Shape := ⟨1, ![16]⟩
abbrev S16x40 : Shape := ⟨2, ![16, 40]⟩
abbrev S40 : Shape := ⟨1, ![40]⟩
abbrev S2x6400000 : Shape := ⟨2, ![2, 6400000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S200000x256 .f32) (main_arg1 : FVec F S256x16 .f32) (main_arg2 : FVec F S16 .f32) (main_arg3 : FVec F S16x40 .f32) (main_arg4 : FVec F S40 .f32) (main_arg5 : IVec S2x6400000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S200000x256 : Shape := ⟨2, ![200000, 256]⟩
abbrev S256x16 : Shape := ⟨2, ![256, 16]⟩
abbrev S16 : Shape := ⟨1, ![16]⟩
abbrev S16x40 : Shape := ⟨2, ![16, 40]⟩
abbrev S40 : Shape := ⟨1, ![40]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x256 : Shape := ⟨2, ![10000, 256]⟩
abbrev S10000x16 : Shape := ⟨2, ![10000, 16]⟩
abbrev S6600000x16 : Shape := ⟨2, ![6600000, 16]⟩
abbrev S1x16 : Shape := ⟨2, ![1, 16]⟩
abbrev S200000x40 : Shape := ⟨2, ![200000, 40]⟩
abbrev S10000x40 : Shape := ⟨2, ![10000, 40]⟩
abbrev S6600000x40 : Shape := ⟨2, ![6600000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 89
  | .vmem => 20
  | .smem => 0
  | _ => 0

abbrev bufTy : (tb : Table) → Fin (tcTables nBuf tb) → BufTy
  | .hbm, ⟨0, _⟩ => ⟨S200000x256, .f32⟩
  | .hbm, ⟨1, _⟩ => ⟨S256x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x6400000, .i32⟩
  | .hbm, ⟨6, _⟩ => ⟨S200000, .i32⟩
  | .hbm, ⟨7, _⟩ => ⟨S1x6400000, .i32⟩
  | .hbm, ⟨8, _⟩ => ⟨S6400000, .i32⟩
  | .hbm, ⟨9, _⟩ => ⟨S6600000, .i32⟩
  | .hbm, ⟨10, _⟩ => ⟨S1x6400000, .i32⟩
  | .hbm, ⟨11, _⟩ => ⟨S6400000, .i32⟩
  | .hbm, ⟨12, _⟩ => ⟨S6600000, .i32⟩
  | .hbm, ⟨13, _⟩ => ⟨S_, .f32⟩
  | .hbm, ⟨14, _⟩ => ⟨S200000, .f32⟩
  | .hbm, ⟨15, _⟩ => ⟨S_, .i32⟩
  | .hbm, ⟨16, _⟩ => ⟨S6600000, .i32⟩
  | .hbm, ⟨17, _⟩ => ⟨S6600000, .i1⟩
  | .hbm, ⟨18, _⟩ => ⟨S_, .i32⟩
  | .hbm, ⟨19, _⟩ => ⟨S6600000, .i32⟩
  | .hbm, ⟨20, _⟩ => ⟨S6600000, .i32⟩
  | .hbm, ⟨21, _⟩ => ⟨S6600000, .i32⟩
  | .hbm, ⟨22, _⟩ => ⟨S6600000x1, .i32⟩
  | .hbm, ⟨23, _⟩ => ⟨S_, .f32⟩
  | .hbm, ⟨24, _⟩ => ⟨S6600000, .f32⟩
  | .hbm, ⟨25, _⟩ => ⟨S200000, .f32⟩
  | .hbm, ⟨26, _⟩ => ⟨S_, .f32⟩
  | .hbm, ⟨27, _⟩ => ⟨S200000, .f32⟩
  | .hbm, ⟨28, _⟩ => ⟨S200000, .i1⟩
  | .hbm, ⟨29, _⟩ => ⟨S200000, .f32⟩
  | .hbm, ⟨30, _⟩ => ⟨S_, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S_, .i32⟩
  | .hbm, ⟨35, _⟩ => ⟨S6600000, .i32⟩
  | .hbm, ⟨36, _⟩ => ⟨S6600000, .i1⟩
  | .hbm, ⟨37, _⟩ => ⟨S_, .i32⟩
  | .hbm, ⟨38, _⟩ => ⟨S6600000, .i32⟩
  | .hbm, ⟨39, _⟩ => ⟨S6600000, .i32⟩
  | .hbm, ⟨40, _⟩ => ⟨S6600000, .i32⟩
  | .hbm, ⟨41, _⟩ => ⟨S6600000x1, .i32⟩
  | .hbm, ⟨42, _⟩ => ⟨S6600000, .f32⟩
  | .hbm, ⟨43, _⟩ => ⟨S_, .i32⟩
  | .hbm, ⟨44, _⟩ => ⟨S6600000, .i32⟩
  | .hbm, ⟨45, _⟩ => ⟨S6600000, .i1⟩
  | .hbm, ⟨46, _⟩ => ⟨S_, .i32⟩
  | .hbm, ⟨47, _⟩ => ⟨S6600000, .i32⟩
  | .hbm, ⟨48, _⟩ => ⟨S6600000, .i32⟩
  | .hbm, ⟨49, _⟩ => ⟨S6600000, .i32⟩
  | .hbm, ⟨50, _⟩ => ⟨S6600000x1, .i32⟩
  | .hbm, ⟨51, _⟩ => ⟨S6600000, .f32⟩
  | .hbm, ⟨52, _⟩ => ⟨S6600000, .f32⟩
  | .hbm, ⟨53, _⟩ => ⟨S200000x16, .f32⟩
  | .hbm, ⟨54, _⟩ => ⟨S_, .i32⟩
  | .hbm, ⟨55, _⟩ => ⟨S6600000, .i32⟩
  | .hbm, ⟨56, _⟩ => ⟨S6600000, .i1⟩
  | .hbm, ⟨57, _⟩ => ⟨S_, .i32⟩
  | .hbm, ⟨58, _⟩ => ⟨S6600000, .i32⟩
  | .hbm, ⟨59, _⟩ => ⟨S6600000, .i32⟩
  | .hbm, ⟨60, _⟩ => ⟨S6600000, .i32⟩
  | .hbm, ⟨61, _⟩ => ⟨S6600000x1, .i32⟩
  | .hbm, ⟨62, _⟩ => ⟨S6600000x16, .f32⟩
  | .hbm, ⟨63, _⟩ => ⟨S6600000x1, .f32⟩
  | .hbm, ⟨64, _⟩ => ⟨S6600000x16, .f32⟩
  | .hbm, ⟨65, _⟩ => ⟨S6600000x16, .f32⟩
  | .hbm, ⟨66, _⟩ => ⟨S_, .f32⟩
  | .hbm, ⟨67, _⟩ => ⟨S200000x16, .f32⟩
  | .hbm, ⟨68, _⟩ => ⟨S6600000x1, .i32⟩
  | .hbm, ⟨69, _⟩ => ⟨S200000x16, .f32⟩
  | .hbm, ⟨70, _⟩ => ⟨S200000x16, .f32⟩
  | .hbm, ⟨71, _⟩ => ⟨S200000x40, .f32⟩
  | .hbm, ⟨72, _⟩ => ⟨S_, .i32⟩
  | .hbm, ⟨73, _⟩ => ⟨S6600000, .i32⟩
  | .hbm, ⟨74, _⟩ => ⟨S6600000, .i1⟩
  | .hbm, ⟨75, _⟩ => ⟨S_, .i32⟩
  | .hbm, ⟨76, _⟩ => ⟨S6600000, .i32⟩
  | .hbm, ⟨77, _⟩ => ⟨S6600000, .i32⟩
  | .hbm, ⟨78, _⟩ => ⟨S6600000, .i32⟩
  | .hbm, ⟨79, _⟩ => ⟨S6600000x1, .i32⟩
  | .hbm, ⟨80, _⟩ => ⟨S6600000x40, .f32⟩
  | .hbm, ⟨81, _⟩ => ⟨S6600000x1, .f32⟩
  | .hbm, ⟨82, _⟩ => ⟨S6600000x40, .f32⟩
  | .hbm, ⟨83, _⟩ => ⟨S6600000x40, .f32⟩
  | .hbm, ⟨84, _⟩ => ⟨S_, .f32⟩
  | .hbm, ⟨85, _⟩ => ⟨S200000x40, .f32⟩
  | .hbm, ⟨86, _⟩ => ⟨S6600000x1, .i32⟩
  | .hbm, ⟨87, _⟩ => ⟨S200000x40, .f32⟩
  | .hbm, ⟨88, _⟩ => ⟨S200000x40, .f32⟩
  | .local _ .vmem, ⟨0, _⟩ => ⟨S10000x256, .f32⟩
  | .local _ .vmem, ⟨1, _⟩ => ⟨S10000x256, .f32⟩
  | .local _ .vmem, ⟨2, _⟩ => ⟨S256x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S40, .f32⟩
  | .local _ .vmem, ⟨18, _⟩ => ⟨S10000x40, .f32⟩
  | .local _ .vmem, ⟨19, _⟩ => ⟨S10000x40, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S200000 : S_.BroadcastsInDim S200000 (![] : Fin 0 → Fin S200000.rank)
  bcast_S_S6600000 : S_.BroadcastsInDim S6600000 (![] : Fin 0 → Fin S6600000.rank)
  bcast_S6600000_S6600000x1_0 : S6600000.BroadcastsInDim S6600000x1 (![0] : Fin 1 → Fin S6600000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S6600000x1_S6600000x40_0_1 : S6600000x1.BroadcastsInDim S6600000x40 (![0, 1] : Fin 2 → Fin S6600000x40.rank)
  bcast_S_S200000x40 : S_.BroadcastsInDim S200000x40 (![] : Fin 0 → Fin S200000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x256_S256x16_S10000x16_1_0_0_1_n_n_wf : DotDims.WF S10000x256 S256x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x40_S10000x40_1_0_0_1_n_n_wf : DotDims.WF S10000x16 S16x40 S10000x40 [1] [0] [0] [1] [] []
  gather_S200000x40_S6600000x1_S6600000x40_1_0_n_n_0_1_140_wf : GatherDims.WF S200000x40 S6600000x1 S6600000x40 [1] [0] [] [0] [] 1 ![1, 40]
  scatter_S200000x40_S6600000x1_S6600000x40_1_0_0_1_wf : ScatterDims.WF S200000x40 S6600000x1 S6600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S200000x16.size a
  hwx1_2 : ∀ i : grid1.Coords, EltTy.bits .f32 = 32 ∨ (Rect.block (s := S200000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S200000x40.size a
  hwx2_2 : ∀ i : grid2.Coords, EltTy.bits .f32 = 32 ∨ (Rect.block (s := S200000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S200000x40.size a
  hwx3_0 : ∀ i : grid3.Coords, EltTy.bits .f32 = 32 ∨ (Rect.block (s := S200000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S200000x40.size a
  hwx3_2 : ∀ i : grid3.Coords, EltTy.bits .f32 = 32 ∨ (Rect.block (s := S200000x40) S10000x40.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S200000x40_S6600000x1_S6600000x40_1_0_n_n_0_1_140 : GatherDims S200000x40 S6600000x1 S6600000x40 where
  offsetDims := [1]
  collapsedSliceDims := [0]
  operandBatchingDims := []
  startIndicesBatchingDims := []
  startIndexMap := [0]
  indexVectorDim := 1
  sliceSizes := ![1, 40]
  wf := gather_S200000x40_S6600000x1_S6600000x40_1_0_n_n_0_1_140_wf
def scatter_S200000x40_S6600000x1_S6600000x40_1_0_0_1 : ScatterDims S200000x40 S6600000x1 S6600000x40 where
  updateWindowDims := [1]
  insertedWindowDims := [0]
  scatterDimsToOperandDims := [0]
  indexVectorDim := 1
  wf := scatter_S200000x40_S6600000x1_S6600000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x256 : Shape := ⟨2, ![200000, 256]⟩
abbrev S256x16 : Shape := ⟨2, ![256, 16]⟩
abbrev S16 : Shape := ⟨1, ![16]⟩
abbrev S16x40 : Shape := ⟨2, ![16, 40]⟩
abbrev S40 : Shape := ⟨1, ![40]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S200000x16 : Shape := ⟨2, ![200000, 16]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x40 : Shape := ⟨2, ![200000, 40]⟩
abbrev S6600000x40 : Shape := ⟨2, ![6600000, 40]⟩
abbrev S1x40 : Shape := ⟨2, ![1, 40]⟩
abbrev S200000x1 : Shape := ⟨2, ![200000, 1]⟩

abbrev nBuf : Space → Nat
  | .hbm => 151
  | .vmem => 0
  | .smem => 0
  | _ => 0

abbrev hbmTy0_0 (i : Nat) : BufTy := match i % 128 with
  | 0 => ⟨S200000x256, .f32⟩
  | 1 => ⟨S256x16, .f32⟩
  | 2 => ⟨S16, .f32⟩
  | 3 => ⟨S16x40, .f32⟩
  | 4 => ⟨S40, .f32⟩
  | 5 => ⟨S2x6400000, .i32⟩
  | 6 => ⟨S200000, .i32⟩
  | 7 => ⟨S1x6400000, .i32⟩
  | 8 => ⟨S6400000, .i32⟩
  | 9 => ⟨S6600000, .i32⟩
  | 10 => ⟨S1x6400000, .i32⟩
  | 11 => ⟨S6400000, .i32⟩
  | 12 => ⟨S6600000, .i32⟩
  | 13 => ⟨S200000x16, .f32⟩
  | 14 => ⟨S_, .f32⟩
  | 15 => ⟨S200000, .f32⟩
  | 16 => ⟨S_, .i32⟩
  | 17 => ⟨S6600000, .i32⟩
  | 18 => ⟨S6600000, .i1⟩
  | 19 => ⟨S_, .i32⟩
  | 20 => ⟨S6600000, .i32⟩
  | 21 => ⟨S6600000, .i32⟩
  | 22 => ⟨S6600000, .i32⟩
  | 23 => ⟨S6600000x1, .i32⟩
  | 24 => ⟨S_, .f32⟩
  | 25 => ⟨S6600000, .f32⟩
  | 26 => ⟨S200000, .f32⟩
  | 27 => ⟨S_, .f32⟩
  | 28 => ⟨S200000, .f32⟩
  | 29 => ⟨S200000, .i1⟩
  | 30 => ⟨S200000, .f32⟩
  | 31 => ⟨S_, .f32⟩
  | 32 => ⟨S_, .f32⟩
  | 33 => ⟨S200000, .f32⟩
  | 34 => ⟨S200000, .f32⟩
  | 35 => ⟨S_, .i32⟩
  | 36 => ⟨S6600000, .i32⟩
  | 37 => ⟨S6600000, .i1⟩
  | 38 => ⟨S_, .i32⟩
  | 39 => ⟨S6600000, .i32⟩
  | 40 => ⟨S6600000, .i32⟩
  | 41 => ⟨S6600000, .i32⟩
  | 42 => ⟨S6600000x1, .i32⟩
  | 43 => ⟨S6600000, .f32⟩
  | 44 => ⟨S_, .i32⟩
  | 45 => ⟨S6600000, .i32⟩
  | 46 => ⟨S6600000, .i1⟩
  | 47 => ⟨S_, .i32⟩
  | 48 => ⟨S6600000, .i32⟩
  | 49 => ⟨S6600000, .i32⟩
  | 50 => ⟨S6600000, .i32⟩
  | 51 => ⟨S6600000x1, .i32⟩
  | 52 => ⟨S6600000, .f32⟩
  | 53 => ⟨S6600000, .f32⟩
  | 54 => ⟨S_, .i32⟩
  | 55 => ⟨S6600000, .i32⟩
  | 56 => ⟨S6600000, .i1⟩
  | 57 => ⟨S_, .i32⟩
  | 58 => ⟨S6600000, .i32⟩
  | 59 => ⟨S6600000, .i32⟩
  | 60 => ⟨S6600000, .i32⟩
  | 61 => ⟨S6600000x1, .i32⟩
  | 62 => ⟨S6600000x16, .f32⟩
  | 63 => ⟨S6600000x1, .f32⟩
  | 64 => ⟨S6600000x16, .f32⟩
  | 65 => ⟨S6600000x16, .f32⟩
  | 66 => ⟨S_, .f32⟩
  | 67 => ⟨S200000x16, .f32⟩
  | 68 => ⟨S6600000x1, .i32⟩
  | 69 => ⟨S200000x16, .f32⟩
  | 70 => ⟨S1x16, .f32⟩
  | 71 => ⟨S200000x16, .f32⟩
  | 72 => ⟨S200000x16, .f32⟩
  | 73 => ⟨S_, .f32⟩
  | 74 => ⟨S200000x16, .f32⟩
  | 75 => ⟨S200000x16, .f32⟩
  | 76 => ⟨S200000x40, .f32⟩
  | 77 => ⟨S_, .f32⟩
  | 78 => ⟨S200000, .f32⟩
  | 79 => ⟨S_, .i32⟩
  | 80 => ⟨S6600000, .i32⟩
  | 81 => ⟨S6600000, .i1⟩
  | 82 => ⟨S_, .i32⟩
  | 83 => ⟨S6600000, .i32⟩
  | 84 => ⟨S6600000, .i32⟩
  | 85 => ⟨S6600000, .i32⟩
  | 86 => ⟨S6600000x1, .i32⟩
  | 87 => ⟨S_, .f32⟩
  | 88 => ⟨S6600000, .f32⟩
  | 89 => ⟨S200000, .f32⟩
  | 90 => ⟨S_, .f32⟩
  | 91 => ⟨S200000, .f32⟩
  | 92 => ⟨S200000, .i1⟩
  | 93 => ⟨S200000, .f32⟩
  | 94 => ⟨S_, .f32⟩
  | 95 => ⟨S_, .f32⟩
  | 96 => ⟨S200000, .f32⟩
  | 97 => ⟨S200000, .f32⟩
  | 98 => ⟨S_, .i32⟩
  | 99 => ⟨S6600000, .i32⟩
  | 100 => ⟨S6600000, .i1⟩
  | 101 => ⟨S_, .i32⟩
  | 102 => ⟨S6600000, .i32⟩
  | 103 => ⟨S6600000, .i32⟩
  | 104 => ⟨S6600000, .i32⟩
  | 105 => ⟨S6600000x1, .i32⟩
  | 106 => ⟨S6600000, .f32⟩
  | 107 => ⟨S_, .i32⟩
  | 108 => ⟨S6600000, .i32⟩
  | 109 => ⟨S6600000, .i1⟩
  | 110 => ⟨S_, .i32⟩
  | 111 => ⟨S6600000, .i32⟩
  | 112 => ⟨S6600000, .i32⟩
  | 113 => ⟨S6600000, .i32⟩
  | 114 => ⟨S6600000x1, .i32⟩
  | 115 => ⟨S6600000, .f32⟩
  | 116 => ⟨S6600000, .f32⟩
  | 117 => ⟨S_, .i32⟩
  | 118 => ⟨S6600000, .i32⟩
  | 119 => ⟨S6600000, .i1⟩
  | 120 => ⟨S_, .i32⟩
  | 121 => ⟨S6600000, .i32⟩
  | 122 => ⟨S6600000, .i32⟩
  | 123 => ⟨S6600000, .i32⟩
  | 124 => ⟨S6600000x1, .i32⟩
  | 125 => ⟨S6600000x40, .f32⟩
  | 126 => ⟨S6600000x1, .f32⟩
  | 127 => ⟨S6600000x40, .f32⟩
  | _ => ⟨S200000x256, .f32⟩

abbrev hbmTy0_1 (i : Nat) : BufTy := match i % 128 with
  | 0 => ⟨S6600000x40, .f32⟩
  | 1 => ⟨S_, .f32⟩
  | 2 => ⟨S200000x40, .f32⟩
  | 3 => ⟨S6600000x1, .i32⟩
  | 4 => ⟨S200000x40, .f32⟩
  | 5 => ⟨S1x40, .f32⟩
  | 6 => ⟨S200000x40, .f32⟩
  | 7 => ⟨S200000x40, .f32⟩
  | 8 => ⟨S_, .f32⟩
  | 9 => ⟨S200000, .f32⟩
  | 10 => ⟨S_, .f32⟩
  | 11 => ⟨S200000, .f32⟩
  | 12 => ⟨S200000, .f32⟩
  | 13 => ⟨S200000x1, .f32⟩
  | 14 => ⟨S200000x40, .f32⟩
  | 15 => ⟨S200000x40, .f32⟩
  | 16 => ⟨S200000x40, .f32⟩
  | 17 => ⟨S_, .f32⟩
  | 18 => ⟨S200000, .f32⟩
  | 19 => ⟨S200000x1, .f32⟩
  | 20 => ⟨S200000x1, .f32⟩
  | 21 => ⟨S200000x40, .f32⟩
  | 22 => ⟨S200000x40, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_call2_v0 : Ref sig .tc := ⟨.hbm, 95, rfl⟩
abbrev main_call2_v1 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_c_22 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_23 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_call3_cst : Ref sig .tc := ⟨.hbm, 136, rfl⟩
abbrev main_call3_v0 : Ref sig .tc := ⟨.hbm, 137, rfl⟩
abbrev main_call3_cst_0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_cst_1 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_v98 : Ref sig .tc := ⟨.hbm, 150, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S200000 : S_.BroadcastsInDim S200000 (![] : Fin 0 → Fin S200000.rank)
  bcast_S_S6600000 : S_.BroadcastsInDim S6600000 (![] : Fin 0 → Fin S6600000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x40_0_1 : S6600000x1.BroadcastsInDim S6600000x40 (![0, 1] : Fin 2 → Fin S6600000x40.rank)
  bcast_S_S200000x40 : S_.BroadcastsInDim S200000x40 (![] : Fin 0 → Fin S200000x40.rank)
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  reducesTo_S200000x40_S200000_d1 : S200000x40.ReducesTo [1] S200000
  h_S_ : 0 < S_.numel
  bcast_S200000_S200000x1_0 : S200000.BroadcastsInDim S200000x1 (![0] : Fin 1 → Fin S200000x1.rank)
  bcast_S200000x1_S200000x40_0_1 : S200000x1.BroadcastsInDim S200000x40 (![0, 1] : Fin 2 → Fin S200000x40.rank)
  dot_S200000x256_S256x16_S200000x16_1_0_0_1_n_n_wf : DotDims.WF S200000x256 S256x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x40_S200000x40_1_0_0_1_n_n_wf : DotDims.WF S200000x16 S16x40 S200000x40 [1] [0] [0] [1] [] []
  gather_S200000x40_S6600000x1_S6600000x40_1_0_n_n_0_1_140_wf : GatherDims.WF S200000x40 S6600000x1 S6600000x40 [1] [0] [] [0] [] 1 ![1, 40]
  scatter_S200000x40_S6600000x1_S6600000x40_1_0_0_1_wf : ScatterDims.WF S200000x40 S6600000x1 S6600000x40 [1] [0] [0] 1

variable [Facts₀]

def dot_S200000x256_S256x16_S200000x16_1_0_0_1_n_n : DotDims S200000x256 S256x16 S200000x16 where
  lhsContracting := [1]
  rhsContracting := [0]
  lhsNonContracting := [0]
  rhsNonContracting := [1]
  lhsBatch := []
  rhsBatch := []
  wf := dot_S200000x256_S256x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x40_S200000x40_1_0_0_1_n_n : DotDims S200000x16 S16x40 S200000x40 where
  lhsContracting := [1]
  rhsContracting := [0]
  lhsNonContracting := [0]
  rhsNonContracting := [1]
  lhsBatch := []
  rhsBatch := []
  wf := dot_S200000x16_S16x40_S200000x40_1_0_0_1_n_n_wf
def gather_S200000x40_S6600000x1_S6600000x40_1_0_n_n_0_1_140 : GatherDims S200000x40 S6600000x1 S6600000x40 where
  offsetDims := [1]
  collapsedSliceDims := [0]
  operandBatchingDims := []
  startIndicesBatchingDims := []
  startIndexMap := [0]
  indexVectorDim := 1
  sliceSizes := ![1, 40]
  wf := gather_S200000x40_S6600000x1_S6600000x40_1_0_n_n_0_1_140_wf
def scatter_S200000x40_S6600000x1_S6600000x40_1_0_0_1 : ScatterDims S200000x40 S6600000x1 S6600000x40 where
  updateWindowDims := [1]
  insertedWindowDims := [0]
  scatterDimsToOperandDims := [0]
  indexVectorDim := 1
  wf := scatter_S200000x40_S6600000x1_S6600000x40_1_0_0_1_wf

class Facts : Prop extends Facts₀ where

variable [Facts]
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KernelRun.lean ====
/-
  The idealized kernel's run with its result named.

  The program is four pipelined calls among stretches of host operations. Its run ends with every buffer
  that outlives a call at the contents the last segment boundary gives it; the frame claim reads the six
  argument buffers off that state, and here the result buffer is read off it as well: the final contents
  of `main_v64` are the boundary contents `W9` at that buffer (what the fourth call's write-backs leave).
-/
import proofs.«153839_j89567247991122_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, with the result buffer at the
    last boundary's contents and the six arguments as launched. -/
theorem run_out : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Gen

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.FirstProduct.lean ====
/-
  The first layer's product x·W1 as one array.

  The call runs over twenty grid points; point t stages rows 10000·t … 10000·t + 9999 of the left array
  (all 256 columns) and the whole 256×16 right array, multiplies them into a zero accumulator (the
  narrowing of both operands to bf16 is the identity on the extended reals) and writes the 10000×16
  block back to the same rows of the result. Entry (p, c) of a block is the sum over q of
  left[p, q]·right[q, c], which depends on row p of the left block only, so the twenty blocks are the
  restrictions of ONE array: entry (n, c) of the result is the sum over q < 256 of left[n, q]·right[q, c].
  The blocks tile the result (row n lies in block n / 10000), so after the call the result array is that
  product, whatever it held before. Stated for any contents `V` the call is entered with.
-/
import proofs.«153839_j89567247991122_1_alg».proof.Proof.Gen.KernelIdeal.Frame
import proofs.«153839_j89567247991122_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FirstProduct

open Cert.KernelIdeal Cert.KernelIdeal.Gen Idealize.ShloMosaic Idealize.ShloMosaic.TcCoe Idealize.ShloMosaic.ValueIdx Idealize.SL.Sem
open Idealize.ShloMosaic.Pipeline (Dat)

/-- The product of an array of 200000 rows with a 256×16 matrix, entry by entry. -/
def product (X : S200000x256.Idx → EReal) (W : S256x16.Idx → EReal) : S200000x16.Idx → EReal :=
  fun i => ∑ q : Fin 256, X (ix2 (⟨(i 0).val, (i 0).isLt⟩ : Fin 200000) q) * W (ix2 q (⟨(i 1).val, (i 1).isLt⟩ : Fin 16))

theorem product_apply (X : S200000x256.Idx → EReal) (W : S256x16.Idx → EReal) (n : Fin 200000) (c : Fin 16) :
    product X W (ix2 n c) = ∑ q : Fin 256, X (ix2 n q) * W (ix2 q c) := rfl

theorem hz : (![0, 0] : Fin 2 → Nat) = fun _ => 0 := funext fun a => by fin_cases a <;> rfl

/-- The block product's dimension numbers are those of a plain product. -/
theorem plain : PlainDot.IsPlain dot_S10000x256_S256x16_S10000x16_1_0_0_1_n_n := ⟨rfl, rfl, rfl, rfl, rfl, rfl⟩

/-- One block's payload at an entry: the sum over the contracted coordinate. -/
theorem payload_apply (x0 : Vec Ideal S10000x256 .f32) (x1 : Vec Ideal S256x16 .f32) (p : Fin 10000) (c : Fin 16) :
    k0_pay1 (F := Ideal) x0 x1 (ix2 p c) = ∑ q : Fin 256, x0 (ix2 p q) * x1 (ix2 q c) := by
  unfold k0_pay1
  exact PlainDot.matmul_zero_apply plain none _ _ p c

/-- The printed index maps over the grid: the left window and the result window move together down the rows, at
    block row t; every other block coordinate is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays as the call finds them. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x16) hz]
  obtain ⟨e0, e1, e2, e3, e4, e5⟩ := index_facts t
  funext j
  obtain ⟨p, c', rfl⟩ : ∃ (p : Fin 10000) (c' : Fin 16), j = ix2 p c' := ⟨j 0, j 1, eq_ix2 j⟩
  show k0_pay1 (F := Ideal) (iblk0 V c 0 t) (iblk0 V c 1 t) (ix2 p c') = product (V c main_arg0) (V c main_arg1) (((cfg0.win 2).blk t).view.emb (ix2 p c'))
  refine (payload_apply (iblk0 V c 0 t) (iblk0 V c 1 t) p c').trans ?_
  unfold product
  refine Finset.sum_congr rfl fun q _ => ?_
  have hp : p.val < 10000 := p.isLt
  have hc : c'.val < 16 := c'.isLt
  have hq : q.val < 256 := q.isLt
  have hl : iblk0 V c 0 t (ix2 p q) = V c main_arg0 (ix2 (⟨((((cfg0.win 2).blk t).view.emb (ix2 p c')) 0).val, ((((cfg0.win 2).blk t).view.emb (ix2 p c')) 0).isLt⟩ : Fin 200000) q) := by
    show V c main_arg0 (((cfg0.win 0).blk t).view.emb (ix2 p q)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * q.val = q.val; omega
  have hr : iblk0 V c 1 t (ix2 q c') = V c main_arg1 (ix2 q (⟨((((cfg0.win 2).blk t).view.emb (ix2 p c')) 1).val, ((((cfg0.win 2).blk t).view.emb (ix2 p c')) 1).isLt⟩ : Fin 16)) := by
    show V c main_arg1 (((cfg0.win 1).blk t).view.emb (ix2 q c')) = _
    refine congrArg (V c main_arg1) (funext fun a => Fin.ext ?_)
    match a with
    | ⟨0, _⟩ => show win0_1.index t (0 : Fin 2) * 256 + 1 * q.val = q.val; omega
    | ⟨1, _⟩ => show win0_1.index t (1 : Fin 2) * 16 + 1 * c'.val = win0_2.index t (1 : Fin 2) * 16 + 1 * c'.val; omega
  rw [hl, hr]

/-- An index of the result lies in point t's block iff each coordinate lies in the block's range on its axis. -/
theorem mem_block (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v35).slice (win0_2.rect t)).set ↔ _
  rw [View.set_slice_whole, Rect.mem_set_unit]
  exact Iff.rfl

/-- Every entry of the result is in the block of the point its row falls in. -/
theorem covered (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 20 := N_0
  let t : Fin cfg0.N := ⟨(i 0).val / 10000, by rw [hN]; omega⟩
  obtain ⟨e0, e1, e2, e3, e4, e5⟩ := index_facts t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After the call the result array is the product of the two operand arrays as the call found them. -/
theorem final (c : Dev nD) : (dat0 V c).arrAt 2 cfg0.N = product (V c main_arg0) (V c main_arg1) :=
  (dat0 V c).arrAt_eq_of_cover 2 (product (V c main_arg0) (V c main_arg1)) (fun t _ => flushed_eq V c t) covered

end Cert.KernelIdeal.FirstProduct

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.FirstEpilogue.lean ====
/-
  The first layer's epilogue, bias and rectifier, as one array.

  The call runs over twenty grid points; point t stages rows 10000·t … 10000·t + 9999 of the aggregated
  array (all 16 columns) and the whole length-16 bias, and writes a 10000×16 block back to the same
  rows of the result. The body adds the bias to every row and takes the maximum with zero.
  Entry (p, c) of a block depends on row p of the staged block and on the bias only, so the twenty blocks
  are the restrictions of ONE array, and they tile the result (row n lies in block n / 10000): after the
  call the result array is that function of the two operand arrays, whatever it held before. Stated for
  any contents `V` the call is entered with.
-/
import proofs.«153839_j89567247991122_1_alg».proof.Proof.Gen.KernelIdeal.Frame
import proofs.«153839_j89567247991122_1_alg».proof.Proof.LibRowBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FirstEpilogue

open Cert.KernelIdeal Cert.KernelIdeal.Gen Idealize.ShloMosaic Idealize.ShloMosaic.TcCoe Idealize.ShloMosaic.ValueIdx Idealize.SL.Sem
open Idealize.ShloMosaic.Pipeline (Dat)

/-- Bias, then the maximum with zero, entry by entry. -/
def biasRelu (A : S200000x16.Idx → EReal) (b : S16.Idx → EReal) : S200000x16.Idx → EReal :=
  fun i => max (A (ix2 (⟨(i 0).val, (i 0).isLt⟩ : Fin 200000) (⟨(i 1).val, (i 1).isLt⟩ : Fin 16)) + b (ix1 (⟨(i 1).val, (i 1).isLt⟩ : Fin 16))) (Ideal.ofBits .f32 0x00000000#32)

theorem biasRelu_apply (A : S200000x16.Idx → EReal) (b : S16.Idx → EReal) (n : Fin 200000) (c : Fin 16) :
    biasRelu A b (ix2 n c) = max (A (ix2 n c) + b (ix1 c)) (Ideal.ofBits .f32 0x00000000#32) := rfl

theorem hz2 : (![0, 0] : Fin 2 → Nat) = fun _ => 0 := funext fun a => by fin_cases a <;> rfl
theorem hz1 : (![0] : Fin 1 → Nat) = fun _ => 0 := funext fun a => by fin_cases a; rfl

/-- One block's payload at an entry. -/
theorem payload_apply (x0 : Vec Ideal S10000x16 .f32) (x1 : Vec Ideal S16 .f32) (p : Fin 10000) (c : Fin 16) :
    k1_pay1 (F := Ideal) x0 x1 (ix2 p c) = max (x0 (ix2 p c) + x1 (ix1 c)) (Ideal.ofBits .f32 0x00000000#32) := by
  unfold k1_pay1
  show max (shapeCast S10000x16 x0 shapeCasts_S10000x16_S10000x16 (ix2 p c) + broadcastTo S10000x16 (shapeCast S1x16 x1 shapeCasts_S16_S1x16) broadcasts_S1x16_S10000x16 (ix2 p c)) _ = _
  rw [shapeCast_self, RowBias.bias_rows (by decide) x1 shapeCasts_S16_S1x16 broadcasts_S1x16_S10000x16 p c]
  rfl

/-- The printed index maps over the grid: the staged window and the result window move together down the rows, at
    block row t; every other block coordinate is zero. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- A staged entry is the aggregated array's entry in the same column of row 10000·t + p. -/
theorem staged_entry (c : Dev nD) (t : Fin cfg1.N) (p : Fin 10000) (c' k : Fin 16) :
    iblk1 V c 0 t (ix2 p k) = V c main_v48 (ix2 (⟨((((cfg1.win 2).blk t).view.emb (ix2 p c')) 0).val, ((((cfg1.win 2).blk t).view.emb (ix2 p c')) 0).isLt⟩ : Fin 200000) k) := by
  obtain ⟨e0, e1, e2, e3, e4⟩ := index_facts t
  have hp : p.val < 10000 := p.isLt
  have hk : k.val < 16 := k.isLt
  show V c main_v48 (((cfg1.win 0).blk t).view.emb (ix2 p k)) = _
  refine congrArg (V c main_v48) (funext fun a => Fin.ext ?_)
  match a with
  | ⟨0, _⟩ => show win1_0.index t (0 : Fin 2) * 10000 + 1 * p.val = win1_2.index t (0 : Fin 2) * 10000 + 1 * p.val; omega
  | ⟨1, _⟩ => show win1_0.index t (1 : Fin 2) * 16 + 1 * k.val = k.val; omega

/-- The staged bias is the bias. -/
theorem staged_bias (c : Dev nD) (t : Fin cfg1.N) (k : Fin 16) : iblk1 V c 1 t (ix1 k) = V c main_arg2 (ix1 k) := by
  obtain ⟨e0, e1, e2, e3, e4⟩ := index_facts t
  have hk : k.val < 16 := k.isLt
  show V c main_arg2 (((cfg1.win 1).blk t).view.emb (ix1 k)) = _
  refine congrArg (V c main_arg2) (funext fun a => Fin.ext ?_)
  match a with
  | ⟨0, _⟩ => show win1_1.index t (0 : Fin 1) * 16 + 1 * k.val = k.val; omega

/-- The column of an entry of point t's block is the block-local column. -/
theorem block_col (t : Fin cfg1.N) (p : Fin 10000) (c' : Fin 16) :
    (⟨((((cfg1.win 2).blk t).view.emb (ix2 p c')) 1).val, ((((cfg1.win 2).blk t).view.emb (ix2 p c')) 1).isLt⟩ : Fin 16) = c' := by
  obtain ⟨e0, e1, e2, e3, e4⟩ := index_facts t
  have hc : c'.val < 16 := c'.isLt
  refine Fin.ext ?_
  show win1_2.index t (1 : Fin 2) * 16 + 1 * c'.val = c'.val
  omega

/-- What point t writes back is block t of the whole-array function of the two arrays as the call finds them. -/
theorem flushed_eq (c : Dev nD) (t : Fin cfg1.N) :
    (dat1 V c).flushed 2 t = ((cfg1.win 2).blk t).view.read (Elt Ideal) (biasRelu (V c main_v48) (V c main_arg2)) := by
  show (cfg1.win 2).cut (grid1.coords t) ((dat1 V c).after 2 t) = _
  rw [after1_2]
  unfold out1_2
  rw [View.canon_unit_zero hz2]
  simp only [View.ld_unit_zero (S := S10000x16) hz2, View.ld_unit_zero (S := S16) hz1]
  funext j
  obtain ⟨p, c', rfl⟩ : ∃ (p : Fin 10000) (c' : Fin 16), j = ix2 p c' := ⟨j 0, j 1, eq_ix2 j⟩
  show k1_pay1 (F := Ideal) (iblk1 V c 0 t) (iblk1 V c 1 t) (ix2 p c') = biasRelu (V c main_v48) (V c main_arg2) (((cfg1.win 2).blk t).view.emb (ix2 p c'))
  refine (payload_apply (iblk1 V c 0 t) (iblk1 V c 1 t) p c').trans ?_
  unfold biasRelu
  rw [block_col t p c']
  rw [staged_entry V c t p c' c', staged_bias V c t c']

/-- An index of the result lies in point t's block iff each coordinate lies in the block's range on its axis. -/
theorem mem_block (t : Fin cfg1.N) (i : S200000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v49).slice (win1_2.rect t)).set ↔ _
  rw [View.set_slice_whole, Rect.mem_set_unit]
  exact Iff.rfl

/-- Every entry of the result is in the block of the point its row falls in. -/
theorem covered (i : S200000x16.Idx) : ∃ t : Fin cfg1.N, (cfg1.win 2).flush t = true ∧ i ∈ ((cfg1.win 2).blk t).view.set := by
  have hi0 : (i 0).val < 200000 := (i 0).isLt
  have hi1 : (i 1).val < 16 := (i 1).isLt
  have hN : cfg1.N = 20 := N_1
  let t : Fin cfg1.N := ⟨(i 0).val / 10000, by rw [hN]; omega⟩
  obtain ⟨e0, e1, e2, e3, e4⟩ := index_facts t
  have ht : t.val = (i 0).val / 10000 := rfl
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the call the result array is the whole-array function of the two operand arrays as the call found them. -/
theorem final (c : Dev nD) : (dat1 V c).arrAt 2 cfg1.N = biasRelu (V c main_v48) (V c main_arg2) :=
  (dat1 V c).arrAt_eq_of_cover 2 (biasRelu (V c main_v48) (V c main_arg2)) (fun t _ => flushed_eq V c t) covered

end Cert.KernelIdeal.FirstEpilogue

end
-- ==== Proof.SecondProduct.lean ====
/-
  The second layer's product h·W2 as one array.

  The call runs over twenty grid points; point t stages rows 10000·t … 10000·t + 9999 of the left array
  (all 16 columns) and the whole 16×40 right array, multiplies them into a zero accumulator (a reshape of the left block onto its own shape first, which changes nothing) (the
  narrowing of both operands to bf16 is the identity on the extended reals) and writes the 10000×40
  block back to the same rows of the result. Entry (p, c) of a block is the sum over q of
  left[p, q]·right[q, c], which depends on row p of the left block only, so the twenty blocks are the
  restrictions of ONE array: entry (n, c) of the result is the sum over q < 16 of left[n, q]·right[q, c].
  The blocks tile the result (row n lies in block n / 10000), so after the call the result array is that
  product, whatever it held before. Stated for any contents `V` the call is entered with.
-/
import proofs.«153839_j89567247991122_1_alg».proof.Proof.Gen.KernelIdeal.Frame
import proofs.«153839_j89567247991122_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SecondProduct

open Cert.KernelIdeal Cert.KernelIdeal.Gen Idealize.ShloMosaic Idealize.ShloMosaic.TcCoe Idealize.ShloMosaic.ValueIdx Idealize.SL.Sem
open Idealize.ShloMosaic.Pipeline (Dat)

/-- The product of an array of 200000 rows with a 16×40 matrix, entry by entry. -/
def product (X : S200000x16.Idx → EReal) (W : S16x40.Idx → EReal) : S200000x40.Idx → EReal :=
  fun i => ∑ q : Fin 16, X (ix2 (⟨(i 0).val, (i 0).isLt⟩ : Fin 200000) q) * W (ix2 q (⟨(i 1).val, (i 1).isLt⟩ : Fin 40))

theorem product_apply (X : S200000x16.Idx → EReal) (W : S16x40.Idx → EReal) (n : Fin 200000) (c : Fin 40) :
    product X W (ix2 n c) = ∑ q : Fin 16, X (ix2 n q) * W (ix2 q c) := rfl

theorem hz : (![0, 0] : Fin 2 → Nat) = fun _ => 0 := funext fun a => by fin_cases a <;> rfl

/-- The block product's dimension numbers are those of a plain product. -/
theorem plain : PlainDot.IsPlain dot_S10000x16_S16x40_S10000x40_1_0_0_1_n_n := ⟨rfl, rfl, rfl, rfl, rfl, rfl⟩

/-- One block's payload at an entry: the sum over the contracted coordinate. -/
theorem payload_apply (x0 : Vec Ideal S10000x16 .f32) (x1 : Vec Ideal S16x40 .f32) (p : Fin 10000) (c : Fin 40) :
    k2_pay1 (F := Ideal) x0 x1 (ix2 p c) = ∑ q : Fin 16, x0 (ix2 p q) * x1 (ix2 q c) := by
  unfold k2_pay1
  refine (PlainDot.matmul_zero_apply plain none _ _ p c).trans ?_
  refine Finset.sum_congr rfl fun q _ => ?_
  show shapeCast S10000x16 x0 shapeCasts_S10000x16_S10000x16 (ix2 p q) * x1 (ix2 q c) = _
  rw [shapeCast_self]

/-- The printed index maps over the grid: the left window and the result window move together down the rows, at
    block row t; every other block coordinate is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the product of the two arrays as the call finds them. -/
theorem flushed_eq (c : Dev nD) (t : Fin cfg2.N) :
    (dat2 V c).flushed 2 t = ((cfg2.win 2).blk t).view.read (Elt Ideal) (product (V c main_v49) (V c main_arg3)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x40) hz]
  obtain ⟨e0, e1, e2, e3, e4, e5⟩ := index_facts t
  funext j
  obtain ⟨p, c', rfl⟩ : ∃ (p : Fin 10000) (c' : Fin 40), j = ix2 p c' := ⟨j 0, j 1, eq_ix2 j⟩
  show k2_pay1 (F := Ideal) (iblk2 V c 0 t) (iblk2 V c 1 t) (ix2 p c') = product (V c main_v49) (V c main_arg3) (((cfg2.win 2).blk t).view.emb (ix2 p c'))
  refine (payload_apply (iblk2 V c 0 t) (iblk2 V c 1 t) p c').trans ?_
  unfold product
  refine Finset.sum_congr rfl fun q _ => ?_
  have hp : p.val < 10000 := p.isLt
  have hc : c'.val < 40 := c'.isLt
  have hq : q.val < 16 := q.isLt
  have hl : iblk2 V c 0 t (ix2 p q) = V c main_v49 (ix2 (⟨((((cfg2.win 2).blk t).view.emb (ix2 p c')) 0).val, ((((cfg2.win 2).blk t).view.emb (ix2 p c')) 0).isLt⟩ : Fin 200000) q) := by
    show V c main_v49 (((cfg2.win 0).blk t).view.emb (ix2 p q)) = _
    refine congrArg (V c main_v49) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * q.val = q.val; omega
  have hr : iblk2 V c 1 t (ix2 q c') = V c main_arg3 (ix2 q (⟨((((cfg2.win 2).blk t).view.emb (ix2 p c')) 1).val, ((((cfg2.win 2).blk t).view.emb (ix2 p c')) 1).isLt⟩ : Fin 40)) := by
    show V c main_arg3 (((cfg2.win 1).blk t).view.emb (ix2 q c')) = _
    refine congrArg (V c main_arg3) (funext fun a => Fin.ext ?_)
    match a with
    | ⟨0, _⟩ => show win2_1.index t (0 : Fin 2) * 16 + 1 * q.val = q.val; omega
    | ⟨1, _⟩ => show win2_1.index t (1 : Fin 2) * 40 + 1 * c'.val = win2_2.index t (1 : Fin 2) * 40 + 1 * c'.val; omega
  rw [hl, hr]

/-- An index of the result lies in point t's block iff each coordinate lies in the block's range on its axis. -/
theorem mem_block (t : Fin cfg2.N) (i : S200000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v50).slice (win2_2.rect t)).set ↔ _
  rw [View.set_slice_whole, Rect.mem_set_unit]
  exact Iff.rfl

/-- Every entry of the result is in the block of the point its row falls in. -/
theorem covered (i : S200000x40.Idx) : ∃ t : Fin cfg2.N, (cfg2.win 2).flush t = true ∧ i ∈ ((cfg2.win 2).blk t).view.set := by
  have hi0 : (i 0).val < 200000 := (i 0).isLt
  have hi1 : (i 1).val < 40 := (i 1).isLt
  have hN : cfg2.N = 20 := N_2
  let t : Fin cfg2.N := ⟨(i 0).val / 10000, by rw [hN]; omega⟩
  obtain ⟨e0, e1, e2, e3, e4, e5⟩ := index_facts t
  have ht : t.val = (i 0).val / 10000 := rfl
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- After the call the result array is the product of the two operand arrays as the call found them. -/
theorem final (c : Dev nD) : (dat2 V c).arrAt 2 cfg2.N = product (V c main_v49) (V c main_arg3) :=
  (dat2 V c).arrAt_eq_of_cover 2 (product (V c main_v49) (V c main_arg3)) (fun t _ => flushed_eq V c t) covered

end Cert.KernelIdeal.SecondProduct

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«153839_j89567247991122_1_alg».proof.Proof.LibPlainDot
import proofs.«153839_j89567247991122_1_alg».proof.Proof.LibRowBias
import proofs.«153839_j89567247991122_1_alg».proof.Proof.LibBroadcast
import proofs.«153839_j89567247991122_1_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowLogSoftmax.lean ====
/-
  Log-softmax along the rows of a matrix, in the vector unit's spelling and in the host's, read at one entry
  on the extended reals.

  Both lowerings of `log_softmax(x, axis = -1)` on an [R, C] array take the row's maximum as a fold of `max`
  from −∞ (the host once more against a −∞ splat, which changes nothing: a fold of `max` is at least the value
  it starts from), subtract it as a column repeated across the lanes, exponentiate, sum the row from zero, take
  the logarithm of that sum while it is still a column, and subtract it repeated across the lanes. At entry
  (p, c) each is the same function `logSoftmax` of row p:

      x[p, c] − M − log (∑ₖ exp (x[p, k] − M)),        M = max over k of x[p, k].

  The only law of the extended reals used is `b ≤ fold max b f`; otherwise the two spellings are the same
  operations in the same order. Any extents (the host's broadcast rule needs R ≠ 1); depends on no program.
-/
import proofs.«153839_j89567247991122_1_alg».proof.Proof.LibAxisFold
import proofs.«153839_j89567247991122_1_alg».proof.Proof.LibHostRowFold
import proofs.«153839_j89567247991122_1_alg».proof.Proof.LibRowLayer

noncomputable section

open scoped BigOperators

namespace Cert.RowLogSoftmax

open Idealize.ShloMosaic Idealize.ShloMosaic.ValueIdx

/-- −∞, as the f32 word both programs print. -/
abbrev ninf : EReal := Ideal.ofBits .f32 0xFF800000#32

/-- A row's maximum: the fold of `max` from −∞. -/
def top {n : ℕ} (l : Fin n → EReal) : EReal := (Finset.univ : Finset (Fin n)).fold max ninf l
/-- An entry shifted by the row's maximum. -/
def shifted {n : ℕ} (l : Fin n → EReal) (c : Fin n) : EReal := l c - top l
/-- The row's log-softmax: the shifted entry minus the logarithm of the sum of the shifted exponentials. -/
def logSoftmax {n : ℕ} (l : Fin n → EReal) (c : Fin n) : EReal :=
  shifted l c - Ideal.log (∑ k : Fin n, Ideal.exp (shifted l k))

/-- A fold of `max` is at least the value it starts from, so one more `max` against that value changes nothing. -/
theorem max_fold {n : ℕ} (b : EReal) (l : Fin n → EReal) :
    max b ((Finset.univ : Finset (Fin n)).fold max b l) = (Finset.univ : Finset (Fin n)).fold max b l :=
  max_eq_right ((Finset.le_fold_max b).mpr (Or.inl le_rfl))

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The entries shifted by their row's maximum, as the vector unit computes them. -/
abbrev kernelShift : FVec Ideal ⟨2, ![R, C]⟩ .f32 :=
  subf lg (broadcastTo ⟨2, ![R, C]⟩ (shapeCast ⟨2, ![R, 1]⟩
    (multiReduction .maximumf [1] ⟨1, ![R]⟩ lg 0xFF800000#32 hr hφ hmax) hs) hb)

/-- The vector unit's shifted entry at (p, c): the entry minus the maximum of row p. -/
theorem kernel_shift (p : Fin R) (c : Fin C) :
    kernelShift lg hr hφ hmax hs hb (ix2 p c) = shifted (fun k => lg (ix2 p k)) c :=
  congrArg (fun z : EReal => lg (ix2 p c) - z)
    ((RowLayer.kernel_across _ hs hb p c).trans (AxisFold.row_max lg 0xFF800000#32 hr hφ hmax p))

/-- The vector unit's log-softmax, at entry (p, c): the logarithm is taken of the row sums laid out as a
    column, and the column is then repeated across the lanes. -/
theorem kernel_logSoftmax (p : Fin R) (c : Fin C) :
    subf (kernelShift lg hr hφ hmax hs hb)
      (broadcastTo ⟨2, ![R, C]⟩ (log (shapeCast ⟨2, ![R, 1]⟩
        (multiReduction .add [1] ⟨1, ![R]⟩ (exp (kernelShift lg hr hφ hmax hs hb)) 0x00000000#32 hr hφ hadd) hs)) hb) (ix2 p c)
      = logSoftmax (fun k => lg (ix2 p k)) c :=
  congrArg₂ (fun a b : EReal => a - b) (kernel_shift lg hr hφ hmax hs hb p c)
    ((Column.broadcastTo_a1_ab_apply _ hb p c).trans
      (congrArg Ideal.log
        ((Column.shapeCast_a_a1_apply _ hs p 0).trans
          ((AxisFold.row_sum (exp (kernelShift lg hr hφ hmax hs hb)) hr hφ hadd p).trans
            (Finset.sum_congr rfl fun k _ => congrArg Ideal.exp (kernel_shift lg hr hφ hmax hs hb p k))))))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The entries shifted by their row's maximum, as the host computes them (the maximum once more against a
    −∞ splat). -/
abbrev hostShift : FVec Ideal ⟨2, ![R, C]⟩ .f32 :=
  subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu))))

/-- The host's shifted entry at (p, c): the entry minus the maximum of row p; the extra `max` against −∞
    is absorbed because the fold already starts from −∞. -/
theorem host_shift (hR : R ≠ 1) (p : Fin R) (c : Fin C) :
    hostShift lg h' hu h0 h1 h2 (ix2 p c) = shifted (fun k => lg (ix2 p k)) c :=
  congrArg (fun z : EReal => lg (ix2 p c) - z)
    ((RowLayer.host_across hR _ h1 h2 p c).trans
      ((congrArg₂ max (Bcast.scalar_apply _ h0 (ix1 p)) (HostRowFold.row_max lg _ h' hu p)).trans
        (max_fold ninf fun k => lg (ix2 p k))))

/-- The host's log-softmax, at entry (p, c): the logarithm is taken of the row sums laid out as a column,
    between the two broadcasts. -/
theorem host_logSoftmax (hR : R ≠ 1) (p : Fin R) (c : Fin C) :
    subf (hostShift lg h' hu h0 h1 h2)
      (broadcastInDim ⟨2, ![R, C]⟩ ![0, 1] h2 (Host.log (broadcastInDim ⟨2, ![R, 1]⟩ ![0] h1
        (Host.reduceAdd (Host.exp (hostShift lg h' hu h0 h1 h2)) (constant (F := Ideal) ⟨0, ![]⟩ .f32 0x00000000#32) h' hu)))) (ix2 p c)
      = logSoftmax (fun k => lg (ix2 p k)) c :=
  congrArg₂ (fun a b : EReal => a - b) (host_shift lg h' hu h0 h1 h2 hR p c)
    ((Bcast.rows_of_col_apply hR _ h2 p c).trans
      (congrArg Ideal.log
        ((Bcast.col_apply hR _ h1 p 0).trans
          ((HostRowFold.row_sum_zero (Host.exp (hostShift lg h' hu h0 h1 h2)) h' hu p).trans
            (Finset.sum_congr rfl fun k _ => congrArg Ideal.exp (host_shift lg h' hu h0 h1 h2 hR p k))))))

end Host

end Cert.RowLogSoftmax

end
-- ==== Proof.SecondEpilogue.lean ====
/-
  The second layer's epilogue, bias and log-softmax along the rows, as one array.

  The call runs over twenty grid points; point t stages rows 10000·t … 10000·t + 9999 of the aggregated
  array (all 40 columns) and the whole length-40 bias, and writes a 10000×40 block back to the same
  rows of the result. The body adds the bias to every row and takes the row's log-softmax: the row's maximum (a fold of max from −∞) is subtracted, and then the logarithm of the sum of the exponentials of the shifted row.
  Entry (p, c) of a block depends on row p of the staged block and on the bias only, so the twenty blocks
  are the restrictions of ONE array, and they tile the result (row n lies in block n / 10000): after the
  call the result array is that function of the two operand arrays, whatever it held before. Stated for
  any contents `V` the call is entered with.
-/
import proofs.«153839_j89567247991122_1_alg».proof.Proof.Gen.KernelIdeal.Frame
import proofs.«153839_j89567247991122_1_alg».proof.Proof.LibRowBias
import proofs.«153839_j89567247991122_1_alg».proof.Proof.LibRowLogSoftmax
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SecondEpilogue

open Cert.KernelIdeal Cert.KernelIdeal.Gen Idealize.ShloMosaic Idealize.ShloMosaic.TcCoe Idealize.ShloMosaic.ValueIdx Idealize.SL.Sem
open Idealize.ShloMosaic.Pipeline (Dat)

/-- Bias, then the log-softmax of each row, entry by entry. -/
def biasLogSoftmax (A : S200000x40.Idx → EReal) (b : S40.Idx → EReal) : S200000x40.Idx → EReal :=
  fun i => RowLogSoftmax.logSoftmax (fun k : Fin 40 => A (ix2 (⟨(i 0).val, (i 0).isLt⟩ : Fin 200000) k) + b (ix1 k)) (⟨(i 1).val, (i 1).isLt⟩ : Fin 40)

theorem biasLogSoftmax_apply (A : S200000x40.Idx → EReal) (b : S40.Idx → EReal) (n : Fin 200000) (c : Fin 40) :
    biasLogSoftmax A b (ix2 n c) = RowLogSoftmax.logSoftmax (fun k : Fin 40 => A (ix2 n k) + b (ix1 k)) c := rfl

theorem hz2 : (![0, 0] : Fin 2 → Nat) = fun _ => 0 := funext fun a => by fin_cases a <;> rfl
theorem hz1 : (![0] : Fin 1 → Nat) = fun _ => 0 := funext fun a => by fin_cases a; rfl

/-- One block's payload at an entry: the log-softmax of the biased row. -/
theorem payload_apply (x0 : Vec Ideal S10000x40 .f32) (x1 : Vec Ideal S40 .f32) (p : Fin 10000) (c : Fin 40) :
    k3_pay1 (F := Ideal) x0 x1 (ix2 p c) = RowLogSoftmax.logSoftmax (fun k : Fin 40 => x0 (ix2 p k) + x1 (ix1 k)) c := by
  unfold k3_pay1
  refine (RowLogSoftmax.kernel_logSoftmax
    (addf (shapeCast S10000x40 x0 shapeCasts_S10000x40_S10000x40) (broadcastTo S10000x40 (shapeCast S1x40 x1 shapeCasts_S40_S1x40) broadcasts_S1x40_S10000x40))
    reduces_S10000x40_S10000 (.inl rfl) rfl rfl shapeCasts_S10000_S10000x1 broadcasts_S10000x1_S10000x40 p c).trans ?_
  refine congrArg (fun l => RowLogSoftmax.logSoftmax l c) (funext fun k => ?_)
  show shapeCast S10000x40 x0 shapeCasts_S10000x40_S10000x40 (ix2 p k) + broadcastTo S10000x40 (shapeCast S1x40 x1 shapeCasts_S40_S1x40) broadcasts_S1x40_S10000x40 (ix2 p k) = _
  rw [shapeCast_self, RowBias.bias_rows (by decide) x1 shapeCasts_S40_S1x40 broadcasts_S1x40_S10000x40 p k]

/-- The printed index maps over the grid: the staged window and the result window move together down the rows, at
    block row t; every other block coordinate is zero. -/
theorem index_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- A staged entry is the aggregated array's entry in the same column of row 10000·t + p. -/
theorem staged_entry (c : Dev nD) (t : Fin cfg3.N) (p : Fin 10000) (c' k : Fin 40) :
    iblk3 V c 0 t (ix2 p k) = V c main_v63 (ix2 (⟨((((cfg3.win 2).blk t).view.emb (ix2 p c')) 0).val, ((((cfg3.win 2).blk t).view.emb (ix2 p c')) 0).isLt⟩ : Fin 200000) k) := by
  obtain ⟨e0, e1, e2, e3, e4⟩ := index_facts t
  have hp : p.val < 10000 := p.isLt
  have hk : k.val < 40 := k.isLt
  show V c main_v63 (((cfg3.win 0).blk t).view.emb (ix2 p k)) = _
  refine congrArg (V c main_v63) (funext fun a => Fin.ext ?_)
  match a with
  | ⟨0, _⟩ => show win3_0.index t (0 : Fin 2) * 10000 + 1 * p.val = win3_2.index t (0 : Fin 2) * 10000 + 1 * p.val; omega
  | ⟨1, _⟩ => show win3_0.index t (1 : Fin 2) * 40 + 1 * k.val = k.val; omega

/-- The staged bias is the bias. -/
theorem staged_bias (c : Dev nD) (t : Fin cfg3.N) (k : Fin 40) : iblk3 V c 1 t (ix1 k) = V c main_arg4 (ix1 k) := by
  obtain ⟨e0, e1, e2, e3, e4⟩ := index_facts t
  have hk : k.val < 40 := k.isLt
  show V c main_arg4 (((cfg3.win 1).blk t).view.emb (ix1 k)) = _
  refine congrArg (V c main_arg4) (funext fun a => Fin.ext ?_)
  match a with
  | ⟨0, _⟩ => show win3_1.index t (0 : Fin 1) * 40 + 1 * k.val = k.val; omega

/-- The column of an entry of point t's block is the block-local column. -/
theorem block_col (t : Fin cfg3.N) (p : Fin 10000) (c' : Fin 40) :
    (⟨((((cfg3.win 2).blk t).view.emb (ix2 p c')) 1).val, ((((cfg3.win 2).blk t).view.emb (ix2 p c')) 1).isLt⟩ : Fin 40) = c' := by
  obtain ⟨e0, e1, e2, e3, e4⟩ := index_facts t
  have hc : c'.val < 40 := c'.isLt
  refine Fin.ext ?_
  show win3_2.index t (1 : Fin 2) * 40 + 1 * c'.val = c'.val
  omega

/-- What point t writes back is block t of the whole-array function of the two arrays as the call finds them. -/
theorem flushed_eq (c : Dev nD) (t : Fin cfg3.N) :
    (dat3 V c).flushed 2 t = ((cfg3.win 2).blk t).view.read (Elt Ideal) (biasLogSoftmax (V c main_v63) (V c main_arg4)) := by
  show (cfg3.win 2).cut (grid3.coords t) ((dat3 V c).after 2 t) = _
  rw [after3_2]
  unfold out3_2
  rw [View.canon_unit_zero hz2]
  simp only [View.ld_unit_zero (S := S10000x40) hz2, View.ld_unit_zero (S := S40) hz1]
  funext j
  obtain ⟨p, c', rfl⟩ : ∃ (p : Fin 10000) (c' : Fin 40), j = ix2 p c' := ⟨j 0, j 1, eq_ix2 j⟩
  show k3_pay1 (F := Ideal) (iblk3 V c 0 t) (iblk3 V c 1 t) (ix2 p c') = biasLogSoftmax (V c main_v63) (V c main_arg4) (((cfg3.win 2).blk t).view.emb (ix2 p c'))
  refine (payload_apply (iblk3 V c 0 t) (iblk3 V c 1 t) p c').trans ?_
  unfold biasLogSoftmax
  rw [block_col t p c']
  refine congrArg (fun l => RowLogSoftmax.logSoftmax l c') (funext fun k => ?_)
  rw [staged_entry V c t p c' k, staged_bias V c t k]

/-- An index of the result lies in point t's block iff each coordinate lies in the block's range on its axis. -/
theorem mem_block (t : Fin cfg3.N) (i : S200000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v64).slice (win3_2.rect t)).set ↔ _
  rw [View.set_slice_whole, Rect.mem_set_unit]
  exact Iff.rfl

/-- Every entry of the result is in the block of the point its row falls in. -/
theorem covered (i : S200000x40.Idx) : ∃ t : Fin cfg3.N, (cfg3.win 2).flush t = true ∧ i ∈ ((cfg3.win 2).blk t).view.set := by
  have hi0 : (i 0).val < 200000 := (i 0).isLt
  have hi1 : (i 1).val < 40 := (i 1).isLt
  have hN : cfg3.N = 20 := N_3
  let t : Fin cfg3.N := ⟨(i 0).val / 10000, by rw [hN]; omega⟩
  obtain ⟨e0, e1, e2, e3, e4⟩ := index_facts t
  have ht : t.val = (i 0).val / 10000 := rfl
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- After the call the result array is the whole-array function of the two operand arrays as the call found them. -/
theorem final (c : Dev nD) : (dat3 V c).arrAt 2 cfg3.N = biasLogSoftmax (V c main_v63) (V c main_arg4) :=
  (dat3 V c).arrAt_eq_of_cover 2 (biasLogSoftmax (V c main_v63) (V c main_arg4)) (fun t _ => flushed_eq V c t) covered

end Cert.KernelIdeal.SecondEpilogue

end
-- ==== Proof.ReferenceStages.lean ====
/-
  The reference's dense stages as the kernel's whole-array functions.

  The reference computes each layer on the host: a matrix product, the normalised aggregation over the
  edges, the bias, and then the rectifier (layer one) or the log-softmax along the rows (layer two). Its
  three dense stages are, entry by entry, the functions the kernel's pipelined calls compute:

  * `dot_general` contracting the left operand's columns with the right operand's rows is the sum over
    the contracted coordinate;
  * the bias broadcast to a row and down the rows, added, then the maximum with a zero splat, is
    max (a[n, c] + b[c]) 0;
  * the bias added the same way and then the host's log-softmax (row maximum folded from −∞ and once more
    against a −∞ splat, shifted exponentials summed from zero, logarithm, subtraction) is the row's
    log-softmax of a[n, ·] + b.
-/
import proofs.«153839_j89567247991122_1_alg».proof.Proof.RefRead
import proofs.«153839_j89567247991122_1_alg».proof.Proof.FirstProduct
import proofs.«153839_j89567247991122_1_alg».proof.Proof.FirstEpilogue
import proofs.«153839_j89567247991122_1_alg».proof.Proof.SecondProduct
import proofs.«153839_j89567247991122_1_alg».proof.Proof.SecondEpilogue
import proofs.«153839_j89567247991122_1_alg».proof.Proof.LibRowLayer
import proofs.«153839_j89567247991122_1_alg».proof.Proof.LibRowLogSoftmax

set_option maxRecDepth 16384

noncomputable section

open scoped BigOperators

namespace Cert.ReferenceIdeal.Stages

open Cert.ReferenceIdeal Cert.ReferenceIdeal.ReadP Cert.ReferenceIdeal.Facts₀ Idealize.ShloMosaic Idealize.ShloMosaic.ValueIdx

variable (x0 : (⟨S200000x256, .f32⟩ : BufTy).Contents (Elt Ideal)) (x1 : (⟨S256x16, .f32⟩ : BufTy).Contents (Elt Ideal))
  (x2 : (⟨S16, .f32⟩ : BufTy).Contents (Elt Ideal)) (x3 : (⟨S16x40, .f32⟩ : BufTy).Contents (Elt Ideal))
  (x4 : (⟨S40, .f32⟩ : BufTy).Contents (Elt Ideal)) (x5 : (⟨S2x6400000, .i32⟩ : BufTy).Contents (Elt Ideal))

theorem plain1 : PlainDot.IsPlain dot_S200000x256_S256x16_S200000x16_1_0_0_1_n_n := ⟨rfl, rfl, rfl, rfl, rfl, rfl⟩
theorem plain2 : PlainDot.IsPlain dot_S200000x16_S16x40_S200000x40_1_0_0_1_n_n := ⟨rfl, rfl, rfl, rfl, rfl, rfl⟩

/-- The first layer's product. -/
theorem product1 : val_main_v7 (F := Ideal) x0 x1 = Cert.KernelIdeal.FirstProduct.product x0 x1 := by
  funext i
  obtain ⟨n, c, rfl⟩ : ∃ (n : Fin 200000) (c : Fin 16), i = ix2 n c := ⟨i 0, i 1, eq_ix2 i⟩
  unfold val_main_v7
  exact PlainDot.dotGeneral_apply plain1 none x0 x1 n c

/-- Bias and rectifier over any array, in the host's spelling. -/
theorem hidden_of (x2 : FVec Ideal S16 .f32) (A : FVec Ideal S200000x16 .f32) :
    maximumf (F := Ideal) (addf A (broadcastInDim S200000x16 ![0, 1] bcast_S1x16_S200000x16_0_1 (broadcastInDim S1x16 ![1] bcast_S16_S1x16_1 x2)))
      (broadcastInDim S200000x16 ![] bcast_S_S200000x16 (constant (F := Ideal) S_ .f32 0x00000000#32))
    = Cert.KernelIdeal.FirstEpilogue.biasRelu A x2 := by
  funext i
  obtain ⟨n, c, rfl⟩ : ∃ (n : Fin 200000) (c : Fin 16), i = ix2 n c := ⟨i 0, i 1, eq_ix2 i⟩
  rw [Cert.KernelIdeal.FirstEpilogue.biasRelu_apply]
  show max (A (ix2 n c)
      + broadcastInDim S200000x16 ![0, 1] bcast_S1x16_S200000x16_0_1 (broadcastInDim S1x16 ![1] bcast_S16_S1x16_1 x2) (ix2 n c))
      (broadcastInDim S200000x16 ![] bcast_S_S200000x16 (constant (F := Ideal) S_ .f32 0x00000000#32) (ix2 n c)) = _
  rw [Bcast.bias_rows_apply (by decide) x2 bcast_S16_S1x16_1 bcast_S1x16_S200000x16_0_1 n c, Bcast.scalar_apply]
  rfl

/-- The first layer's bias and rectifier over the aggregated array. -/
theorem hidden : val_main_v52 (F := Ideal) x0 x1 x2 x5 = Cert.KernelIdeal.FirstEpilogue.biasRelu (val_main_v48 (F := Ideal) x0 x1 x5) x2 := by
  unfold val_main_v52 val_main_v51 val_main_v50 val_main_v49 val_main_call1_v0 val_main_call1_cst
  generalize val_main_v48 (F := Ideal) x0 x1 x5 = A
  exact hidden_of x2 A

/-- A plain product of any array with W2, in the host's spelling. -/
theorem product2_of (x3 : FVec Ideal S16x40 .f32) (H : FVec Ideal S200000x16 .f32) :
    Host.dotGeneral (F := Ideal) dot_S200000x16_S16x40_S200000x40_1_0_0_1_n_n none H x3 = Cert.KernelIdeal.SecondProduct.product H x3 := by
  funext i
  obtain ⟨n, c, rfl⟩ : ∃ (n : Fin 200000) (c : Fin 40), i = ix2 n c := ⟨i 0, i 1, eq_ix2 i⟩
  exact PlainDot.dotGeneral_apply plain2 none H x3 n c

/-- The second layer's product. -/
theorem product2 : val_main_v53 (F := Ideal) x0 x1 x2 x3 x5 = Cert.KernelIdeal.SecondProduct.product (val_main_v52 (F := Ideal) x0 x1 x2 x5) x3 := by
  unfold val_main_v53
  generalize val_main_v52 (F := Ideal) x0 x1 x2 x5 = H
  exact product2_of x3 H

/-- Bias and log-softmax along the rows over any array, in the host's spelling. -/
theorem output_of (x4 : FVec Ideal S40 .f32) (A : FVec Ideal S200000x40 .f32) (n : Fin 200000) (c : Fin 40) :
    RowLogSoftmax.logSoftmax (fun k : Fin 40 => addf (F := Ideal) A (broadcastInDim S200000x40 ![0, 1] bcast_S1x40_S200000x40_0_1 (broadcastInDim S1x40 ![1] bcast_S40_S1x40_1 x4)) (ix2 n k)) c
      = Cert.KernelIdeal.SecondEpilogue.biasLogSoftmax A x4 (ix2 n c) := by
  rw [Cert.KernelIdeal.SecondEpilogue.biasLogSoftmax_apply]
  refine congrArg (fun l => RowLogSoftmax.logSoftmax l c) (funext fun k => ?_)
  exact congrArg (A (ix2 n k) + ·) (Bcast.bias_rows_apply (by decide) x4 bcast_S40_S1x40_1 bcast_S1x40_S200000x40_0_1 n k)

/-- The host's log-softmax of any array, at an entry. -/
theorem logSoftmax_of (L : FVec Ideal S200000x40 .f32) (n : Fin 200000) (c : Fin 40) :
    subf (RowLogSoftmax.hostShift L reducesTo_S200000x40_S200000_d1 h_S_ bcast_S_S200000 bcast_S200000_S200000x1_0 bcast_S200000x1_S200000x40_0_1)
      (broadcastInDim S200000x40 ![0, 1] bcast_S200000x1_S200000x40_0_1 (Host.log (broadcastInDim S200000x1 ![0] bcast_S200000_S200000x1_0
        (Host.reduceAdd (Host.exp (RowLogSoftmax.hostShift L reducesTo_S200000x40_S200000_d1 h_S_ bcast_S_S200000 bcast_S200000_S200000x1_0 bcast_S200000x1_S200000x40_0_1))
          (constant (F := Ideal) S_ .f32 0x00000000#32) reducesTo_S200000x40_S200000_d1 h_S_)))) (ix2 n c)
      = RowLogSoftmax.logSoftmax (fun k => L (ix2 n k)) c :=
  RowLogSoftmax.host_logSoftmax L reducesTo_S200000x40_S200000_d1 h_S_ bcast_S_S200000 bcast_S200000_S200000x1_0 bcast_S200000x1_S200000x40_0_1 (by decide) n c

/-- The host's log-softmax of any array: the row maximum folded from −∞ and once more against a −∞ splat, the shift, the
    exponentials summed from zero, the logarithm, the subtraction. -/
def hostLogSoftmax (L : FVec Ideal S200000x40 .f32) : FVec Ideal S200000x40 .f32 :=
  subf (RowLogSoftmax.hostShift L reducesTo_S200000x40_S200000_d1 h_S_ bcast_S_S200000 bcast_S200000_S200000x1_0 bcast_S200000x1_S200000x40_0_1)
    (broadcastInDim S200000x40 ![0, 1] bcast_S200000x1_S200000x40_0_1 (Host.log (broadcastInDim S200000x1 ![0] bcast_S200000_S200000x1_0
      (Host.reduceAdd (Host.exp (RowLogSoftmax.hostShift L reducesTo_S200000x40_S200000_d1 h_S_ bcast_S_S200000 bcast_S200000_S200000x1_0 bcast_S200000x1_S200000x40_0_1))
        (constant (F := Ideal) S_ .f32 0x00000000#32) reducesTo_S200000x40_S200000_d1 h_S_))))

/-- The host's bias rows, for any bias. -/
def hostBiased (A : FVec Ideal S200000x40 .f32) (b : FVec Ideal S40 .f32) : FVec Ideal S200000x40 .f32 :=
  addf A (broadcastInDim S200000x40 ![0, 1] bcast_S1x40_S200000x40_0_1 (broadcastInDim S1x40 ![1] bcast_S40_S1x40_1 b))

/-- Bias then the host's log-softmax, of any array and bias, is the kernel's whole-array function. -/
theorem output_generic (A : FVec Ideal S200000x40 .f32) (b : FVec Ideal S40 .f32) :
    hostLogSoftmax (hostBiased A b) = Cert.KernelIdeal.SecondEpilogue.biasLogSoftmax A b := by
  funext i
  obtain ⟨n, c, rfl⟩ : ∃ (n : Fin 200000) (c : Fin 40), i = ix2 n c := ⟨i 0, i 1, eq_ix2 i⟩
  exact (logSoftmax_of (hostBiased A b) n c).trans (output_of b A n c)

/-- The reference's last call is the host's log-softmax of its operand. -/
theorem output_call : val_main_v98 (F := Ideal) x0 x1 x2 x3 x4 x5 = hostLogSoftmax (val_main_v97 (F := Ideal) x0 x1 x2 x3 x4 x5) := by
  unfold val_main_v98 val_main_call3_v10 val_main_call3_v9 val_main_call3_v8 val_main_call3_v7 val_main_call3_cst_1 val_main_call3_v6
    val_main_call3_v5 val_main_call3_v4 val_main_call3_v3 val_main_call3_v2 val_main_call3_v1 val_main_call3_cst_0 val_main_call3_v0 val_main_call3_cst
  generalize val_main_v97 (F := Ideal) x0 x1 x2 x3 x4 x5 = L
  rfl

/-- The operand of the reference's last call is the biased aggregate. -/
theorem output_operand : val_main_v97 (F := Ideal) x0 x1 x2 x3 x4 x5 = hostBiased (val_main_v94 (F := Ideal) x0 x1 x2 x3 x5) x4 := by
  unfold val_main_v97 val_main_v96 val_main_v95
  generalize val_main_v94 (F := Ideal) x0 x1 x2 x3 x5 = A
  rfl

/-- The result: the second layer's bias and log-softmax over the aggregated array. -/
theorem output : val_main_v98 (F := Ideal) x0 x1 x2 x3 x4 x5 = Cert.KernelIdeal.SecondEpilogue.biasLogSoftmax (val_main_v94 (F := Ideal) x0 x1 x2 x3 x5) x4 :=
  (output_call x0 x1 x2 x3 x4 x5).trans ((congrArg hostLogSoftmax (output_operand x0 x1 x2 x3 x4 x5)).trans (output_generic _ x4))

end Cert.ReferenceIdeal.Stages

end
-- ==== Proof.Boundaries.lean ====
/-
  The idealized kernel's buffers at the boundaries between its host lines and its four pipelined calls.

  The run's state at a boundary is a fold: a line of host operations applies each operation's function to
  its operands' contents, and a pipelined call replaces its result array by what its write-backs leave
  and keeps every other buffer. Walking that fold back from the result buffer:

  * the edge lists (sources, targets, each followed by one self loop per node) and the edge weights
    d[source]·d[target], d = where(deg > 0, rsqrt deg, 0), are computed once from the edge index before
    the first call, and no later line or call writes them;
  * the first call leaves x·W1; the next line gathers its rows at the sources, scales them by the edge
    weights and adds them into the targets' rows; the second call adds the bias and takes the maximum
    with zero; the third call multiplies by W2; the next line aggregates again with the same weights;
    the fourth call adds the bias and takes the log-softmax of each row.

  Each of these is the reference's own stage (the same host operations on the same operands; the dense
  stages by the whole-array forms of the calls), so the result buffer ends holding the reference's result
  as a function of the six arguments.
-/
import proofs.«153839_j89567247991122_1_alg».proof.Proof.KernelRun
import proofs.«153839_j89567247991122_1_alg».proof.Proof.ReferenceStages
import proofs.«153839_j89567247991122_1_alg».proof.Proof.LibHostWalk

set_option maxRecDepth 65536

noncomputable section

namespace Cert.KernelIdeal.Walk

open Cert.KernelIdeal Cert.KernelIdeal.Gen Idealize.ShloMosaic Idealize.ShloMosaic.TcCoe Idealize.ShloMosaic.StableHlo Idealize.SL.Sem
open Cert.HostWalk

variable (m : (ℓ : Loc nD τ sig) → Buf (Elt Ideal) ℓ) (ρ : Dev nD → PrngReg) (c : Dev nD)

/-! ## Before the first call -/

/-- The sources of the edges, self loops appended. -/
theorem sources_entry : W3 m ρ c (Proc.devRef .tc main_v3) = Cert.ReferenceIdeal.ReadP.val_main_v3 (F := Ideal) (m ((c.tc : Thread nD τ).loc main_arg5)) := by
  show StableHlo.after hostOps0_2 (StableHlo.after hostOps0_1 (StableHlo.after hostOps0 (W0 m ρ c))) (Proc.devRef .tc main_v3) = _
  walk_back []
  simp only [Cert.ReferenceIdeal.ReadP.val_main_v3, Cert.ReferenceIdeal.ReadP.val_main_v2, Cert.ReferenceIdeal.ReadP.val_main_v1, Cert.ReferenceIdeal.ReadP.val_main_v0]
  rfl

/-- The targets of the edges, self loops appended. -/
theorem targets_entry : W3 m ρ c (Proc.devRef .tc main_v6) = Cert.ReferenceIdeal.ReadP.val_main_v6 (F := Ideal) (m ((c.tc : Thread nD τ).loc main_arg5)) := by
  show StableHlo.after hostOps0_2 (StableHlo.after hostOps0_1 (StableHlo.after hostOps0 (W0 m ρ c))) (Proc.devRef .tc main_v6) = _
  walk_back []
  simp only [Cert.ReferenceIdeal.ReadP.val_main_v6, Cert.ReferenceIdeal.ReadP.val_main_v5, Cert.ReferenceIdeal.ReadP.val_main_v4, Cert.ReferenceIdeal.ReadP.val_main_v0]
  rfl

/-- The edge weights. -/
theorem weights_entry : W3 m ρ c (Proc.devRef .tc main_v34) = Cert.ReferenceIdeal.ReadP.val_main_v35 (F := Ideal) (m ((c.tc : Thread nD τ).loc main_arg5)) := by
  show StableHlo.after hostOps0_2 (StableHlo.after hostOps0_1 (StableHlo.after hostOps0 (W0 m ρ c))) (Proc.devRef .tc main_v34) = _
  walk_back []
  simp only [Cert.ReferenceIdeal.ReadP.val_main_v35, Cert.ReferenceIdeal.ReadP.val_main_v27, Cert.ReferenceIdeal.ReadP.val_main_v20, Cert.ReferenceIdeal.ReadP.val_main_v18, Cert.ReferenceIdeal.ReadP.val_main_v16, Cert.ReferenceIdeal.ReadP.val_main_v8, Cert.ReferenceIdeal.ReadP.val_main_cst, Cert.ReferenceIdeal.ReadP.val_main_v14, Cert.ReferenceIdeal.ReadP.val_main_v13, Cert.ReferenceIdeal.ReadP.val_main_v10, Cert.ReferenceIdeal.ReadP.val_main_v9, Cert.ReferenceIdeal.ReadP.val_main_c, Cert.ReferenceIdeal.ReadP.val_main_v12, Cert.ReferenceIdeal.ReadP.val_main_v11, Cert.ReferenceIdeal.ReadP.val_main_c_0, Cert.ReferenceIdeal.ReadP.val_main_v15, Cert.ReferenceIdeal.ReadP.val_main_cst_1, Cert.ReferenceIdeal.ReadP.val_main_v17, Cert.ReferenceIdeal.ReadP.val_main_cst_2, Cert.ReferenceIdeal.ReadP.val_main_v19, Cert.ReferenceIdeal.ReadP.val_main_call0_v1, Cert.ReferenceIdeal.ReadP.val_main_call0_v0, Cert.ReferenceIdeal.ReadP.val_main_cst_3, Cert.ReferenceIdeal.ReadP.val_main_v26, Cert.ReferenceIdeal.ReadP.val_main_v25, Cert.ReferenceIdeal.ReadP.val_main_v22, Cert.ReferenceIdeal.ReadP.val_main_v21, Cert.ReferenceIdeal.ReadP.val_main_c_4, Cert.ReferenceIdeal.ReadP.val_main_v24, Cert.ReferenceIdeal.ReadP.val_main_v23, Cert.ReferenceIdeal.ReadP.val_main_c_5, Cert.ReferenceIdeal.ReadP.val_main_v34, Cert.ReferenceIdeal.ReadP.val_main_v33, Cert.ReferenceIdeal.ReadP.val_main_v32, Cert.ReferenceIdeal.ReadP.val_main_v29, Cert.ReferenceIdeal.ReadP.val_main_v28, Cert.ReferenceIdeal.ReadP.val_main_c_6, Cert.ReferenceIdeal.ReadP.val_main_v31, Cert.ReferenceIdeal.ReadP.val_main_v30, Cert.ReferenceIdeal.ReadP.val_main_c_7, Cert.ReferenceIdeal.ReadP.val_main_v3, Cert.ReferenceIdeal.ReadP.val_main_v2, Cert.ReferenceIdeal.ReadP.val_main_v1, Cert.ReferenceIdeal.ReadP.val_main_v0, Cert.ReferenceIdeal.ReadP.val_main_v6, Cert.ReferenceIdeal.ReadP.val_main_v5, Cert.ReferenceIdeal.ReadP.val_main_v4, Cert.ReferenceIdeal.ReadP.val_main_v0]
  rfl

/-- No host operation before the first call writes an argument. -/
theorem arg_entry (b : Ref sig .tc) (hb : b = main_arg0 ∨ b = main_arg1 ∨ b = main_arg2 ∨ b = main_arg3 ∨ b = main_arg4) :
    W3 m ρ c (Proc.devRef .tc b) = m ((c.tc : Thread nD τ).loc b) := by
  show StableHlo.after hostOps0_2 (StableHlo.after hostOps0_1 (StableHlo.after hostOps0 (W0 m ρ c))) (Proc.devRef .tc b) = _
  rcases hb with rfl | rfl | rfl | rfl | rfl <;> walk_back []

/-! ## The first layer -/

/-- After the first call the product array holds x·W1, which is the reference's first product. -/
theorem product1_exit : W4 m ρ c (Proc.devRef .tc main_v35)
    = Cert.ReferenceIdeal.ReadP.val_main_v7 (F := Ideal) (m ((c.tc : Thread nD τ).loc main_arg0)) (m ((c.tc : Thread nD τ).loc main_arg1)) :=
  (W4_arr m ρ c 2).trans ((FirstProduct.final (V3 m ρ) c).trans
    ((congrArg₂ FirstProduct.product (arg_entry m ρ c main_arg0 (.inl rfl)) (arg_entry m ρ c main_arg1 (.inr (.inl rfl)))).trans
      (Cert.ReferenceIdeal.Stages.product1 _ _).symm))

/-- The first call writes its product array only. -/
theorem keep_first (b : Ref sig .tc) (hb : ∀ w, Pipeline.arrRef spec0 w ≠ b) :
    W4 m ρ c (Proc.devRef .tc b) = W3 m ρ c (Proc.devRef .tc b) := W4_of_ne m ρ c b hb

/-- The line after the first call: rows gathered at the sources, scaled by the edge weights, added into the targets' rows. -/
theorem aggregate1_exit : W5 m ρ c (Proc.devRef .tc main_v48)
    = Cert.ReferenceIdeal.ReadP.val_main_v48 (F := Ideal) (m ((c.tc : Thread nD τ).loc main_arg0)) (m ((c.tc : Thread nD τ).loc main_arg1)) (m ((c.tc : Thread nD τ).loc main_arg5)) := by
  show StableHlo.after hostOps1 (W4 m ρ c) (Proc.devRef .tc main_v48) = _
  walk_back []
  rw [product1_exit m ρ c, keep_first m ρ c main_v3 (by decide), keep_first m ρ c main_v34 (by decide), keep_first m ρ c main_v6 (by decide),
    sources_entry m ρ c, weights_entry m ρ c, targets_entry m ρ c]
  simp only [Cert.ReferenceIdeal.ReadP.val_main_v48, Cert.ReferenceIdeal.ReadP.val_main_v46, Cert.ReferenceIdeal.ReadP.val_main_cst_10, Cert.ReferenceIdeal.ReadP.val_main_v47, Cert.ReferenceIdeal.ReadP.val_main_v45, Cert.ReferenceIdeal.ReadP.val_main_v42, Cert.ReferenceIdeal.ReadP.val_main_v41, Cert.ReferenceIdeal.ReadP.val_main_v40, Cert.ReferenceIdeal.ReadP.val_main_v37, Cert.ReferenceIdeal.ReadP.val_main_v36, Cert.ReferenceIdeal.ReadP.val_main_c_8, Cert.ReferenceIdeal.ReadP.val_main_v39, Cert.ReferenceIdeal.ReadP.val_main_v38, Cert.ReferenceIdeal.ReadP.val_main_c_9, Cert.ReferenceIdeal.ReadP.val_main_v44, Cert.ReferenceIdeal.ReadP.val_main_v43]
  rfl

/-- That line writes none of the buffers read later. -/
theorem keep_line1 (b : Ref sig .tc) (hb : b = main_arg2 ∨ b = main_arg3 ∨ b = main_arg4 ∨ b = main_v3 ∨ b = main_v34 ∨ b = main_v6) :
    W5 m ρ c (Proc.devRef .tc b) = W4 m ρ c (Proc.devRef .tc b) := by
  show StableHlo.after hostOps1 (W4 m ρ c) (Proc.devRef .tc b) = _
  rcases hb with rfl | rfl | rfl | rfl | rfl | rfl <;> walk_back []

/-- After the second call the hidden array holds max(aggregate + b1, 0): the reference's hidden layer. -/
theorem hidden_exit : W6 m ρ c (Proc.devRef .tc main_v49)
    = Cert.ReferenceIdeal.ReadP.val_main_v52 (F := Ideal) (m ((c.tc : Thread nD τ).loc main_arg0)) (m ((c.tc : Thread nD τ).loc main_arg1)) (m ((c.tc : Thread nD τ).loc main_arg2)) (m ((c.tc : Thread nD τ).loc main_arg5)) :=
  (W6_arr m ρ c 2).trans ((FirstEpilogue.final (V5 m ρ) c).trans
    ((congrArg₂ FirstEpilogue.biasRelu (aggregate1_exit m ρ c)
        ((keep_line1 m ρ c main_arg2 (.inl rfl)).trans ((keep_first m ρ c main_arg2 (by decide)).trans (arg_entry m ρ c main_arg2 (.inr (.inr (.inl rfl))))))).trans
      (Cert.ReferenceIdeal.Stages.hidden _ _ _ _).symm))

/-! ## The second layer -/

/-- The second call writes its result array only. -/
theorem keep_second (b : Ref sig .tc) (hb : ∀ w, Pipeline.arrRef spec1 w ≠ b) :
    W6 m ρ c (Proc.devRef .tc b) = W5 m ρ c (Proc.devRef .tc b) := W6_of_ne m ρ c b hb

/-- A buffer written before the first call and by nothing since, read at the third call's entry. -/
theorem back_to_entry (b : Ref sig .tc) (h0 : ∀ w, Pipeline.arrRef spec0 w ≠ b) (h1 : ∀ w, Pipeline.arrRef spec1 w ≠ b)
    (hb : b = main_arg2 ∨ b = main_arg3 ∨ b = main_arg4 ∨ b = main_v3 ∨ b = main_v34 ∨ b = main_v6) :
    W6 m ρ c (Proc.devRef .tc b) = W3 m ρ c (Proc.devRef .tc b) :=
  (keep_second m ρ c b h1).trans ((keep_line1 m ρ c b hb).trans (keep_first m ρ c b h0))

/-- After the third call the product array holds hidden·W2, which is the reference's second product. -/
theorem product2_exit : W7 m ρ c (Proc.devRef .tc main_v50)
    = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  (W7_arr m ρ c 2).trans ((SecondProduct.final (V6 m ρ) c).trans
    ((congrArg₂ SecondProduct.product (hidden_exit m ρ c)
        ((back_to_entry m ρ c main_arg3 (by decide) (by decide) (.inr (.inl rfl))).trans (arg_entry m ρ c main_arg3 (.inr (.inr (.inr (.inl rfl))))))).trans
      (Cert.ReferenceIdeal.Stages.product2 _ _ _ _ _).symm))

/-- The third call writes its product array only. -/
theorem keep_third (b : Ref sig .tc) (hb : ∀ w, Pipeline.arrRef spec2 w ≠ b) :
    W7 m ρ c (Proc.devRef .tc b) = W6 m ρ c (Proc.devRef .tc b) := W7_of_ne m ρ c b hb

/-- The edge weights are computed once: the reference's second computation of them is the same function of the edge index. -/
theorem weights_again (x5 : (⟨Cert.ReferenceIdeal.S2x6400000, .i32⟩ : BufTy).Contents (Elt Ideal)) :
    Cert.ReferenceIdeal.ReadP.val_main_v81 (F := Ideal) x5 = Cert.ReferenceIdeal.ReadP.val_main_v35 (F := Ideal) x5 := by
  simp only [Cert.ReferenceIdeal.ReadP.val_main_v81, Cert.ReferenceIdeal.ReadP.val_main_v73, Cert.ReferenceIdeal.ReadP.val_main_v66, Cert.ReferenceIdeal.ReadP.val_main_v64, Cert.ReferenceIdeal.ReadP.val_main_v62, Cert.ReferenceIdeal.ReadP.val_main_v54, Cert.ReferenceIdeal.ReadP.val_main_cst_11, Cert.ReferenceIdeal.ReadP.val_main_v60, Cert.ReferenceIdeal.ReadP.val_main_v59, Cert.ReferenceIdeal.ReadP.val_main_v56, Cert.ReferenceIdeal.ReadP.val_main_v55, Cert.ReferenceIdeal.ReadP.val_main_c_12, Cert.ReferenceIdeal.ReadP.val_main_v58, Cert.ReferenceIdeal.ReadP.val_main_v57, Cert.ReferenceIdeal.ReadP.val_main_c_13, Cert.ReferenceIdeal.ReadP.val_main_v61, Cert.ReferenceIdeal.ReadP.val_main_cst_14, Cert.ReferenceIdeal.ReadP.val_main_v63, Cert.ReferenceIdeal.ReadP.val_main_cst_15, Cert.ReferenceIdeal.ReadP.val_main_v65, Cert.ReferenceIdeal.ReadP.val_main_call2_v1, Cert.ReferenceIdeal.ReadP.val_main_call2_v0, Cert.ReferenceIdeal.ReadP.val_main_cst_16, Cert.ReferenceIdeal.ReadP.val_main_v72, Cert.ReferenceIdeal.ReadP.val_main_v71, Cert.ReferenceIdeal.ReadP.val_main_v68, Cert.ReferenceIdeal.ReadP.val_main_v67, Cert.ReferenceIdeal.ReadP.val_main_c_17, Cert.ReferenceIdeal.ReadP.val_main_v70, Cert.ReferenceIdeal.ReadP.val_main_v69, Cert.ReferenceIdeal.ReadP.val_main_c_18, Cert.ReferenceIdeal.ReadP.val_main_v80, Cert.ReferenceIdeal.ReadP.val_main_v79, Cert.ReferenceIdeal.ReadP.val_main_v78, Cert.ReferenceIdeal.ReadP.val_main_v75, Cert.ReferenceIdeal.ReadP.val_main_v74, Cert.ReferenceIdeal.ReadP.val_main_c_19, Cert.ReferenceIdeal.ReadP.val_main_v77, Cert.ReferenceIdeal.ReadP.val_main_v76, Cert.ReferenceIdeal.ReadP.val_main_c_20, Cert.ReferenceIdeal.ReadP.val_main_v35, Cert.ReferenceIdeal.ReadP.val_main_v27, Cert.ReferenceIdeal.ReadP.val_main_v20, Cert.ReferenceIdeal.ReadP.val_main_v18, Cert.ReferenceIdeal.ReadP.val_main_v16, Cert.ReferenceIdeal.ReadP.val_main_v8, Cert.ReferenceIdeal.ReadP.val_main_cst, Cert.ReferenceIdeal.ReadP.val_main_v14, Cert.ReferenceIdeal.ReadP.val_main_v13, Cert.ReferenceIdeal.ReadP.val_main_v10, Cert.ReferenceIdeal.ReadP.val_main_v9, Cert.ReferenceIdeal.ReadP.val_main_c, Cert.ReferenceIdeal.ReadP.val_main_v12, Cert.ReferenceIdeal.ReadP.val_main_v11, Cert.ReferenceIdeal.ReadP.val_main_c_0, Cert.ReferenceIdeal.ReadP.val_main_v15, Cert.ReferenceIdeal.ReadP.val_main_cst_1, Cert.ReferenceIdeal.ReadP.val_main_v17, Cert.ReferenceIdeal.ReadP.val_main_cst_2, Cert.ReferenceIdeal.ReadP.val_main_v19, Cert.ReferenceIdeal.ReadP.val_main_call0_v1, Cert.ReferenceIdeal.ReadP.val_main_call0_v0, Cert.ReferenceIdeal.ReadP.val_main_cst_3, Cert.ReferenceIdeal.ReadP.val_main_v26, Cert.ReferenceIdeal.ReadP.val_main_v25, Cert.ReferenceIdeal.ReadP.val_main_v22, Cert.ReferenceIdeal.ReadP.val_main_v21, Cert.ReferenceIdeal.ReadP.val_main_c_4, Cert.ReferenceIdeal.ReadP.val_main_v24, Cert.ReferenceIdeal.ReadP.val_main_v23, Cert.ReferenceIdeal.ReadP.val_main_c_5, Cert.ReferenceIdeal.ReadP.val_main_v34, Cert.ReferenceIdeal.ReadP.val_main_v33, Cert.ReferenceIdeal.ReadP.val_main_v32, Cert.ReferenceIdeal.ReadP.val_main_v29, Cert.ReferenceIdeal.ReadP.val_main_v28, Cert.ReferenceIdeal.ReadP.val_main_c_6, Cert.ReferenceIdeal.ReadP.val_main_v31, Cert.ReferenceIdeal.ReadP.val_main_v30, Cert.ReferenceIdeal.ReadP.val_main_c_7]

/-- The line after the third call: the same aggregation, of the second product's rows. -/
theorem aggregate2_exit : W8 m ρ c (Proc.devRef .tc main_v63)
    = Cert.ReferenceIdeal.ReadP.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  show StableHlo.after hostOps3 (W7 m ρ c) (Proc.devRef .tc main_v63) = _
  walk_back []
  rw [product2_exit m ρ c,
    keep_third m ρ c main_v3 (by decide), keep_third m ρ c main_v34 (by decide), keep_third m ρ c main_v6 (by decide),
    back_to_entry m ρ c main_v3 (by decide) (by decide) (.inr (.inr (.inr (.inl rfl)))),
    back_to_entry m ρ c main_v34 (by decide) (by decide) (.inr (.inr (.inr (.inr (.inl rfl))))),
    back_to_entry m ρ c main_v6 (by decide) (by decide) (.inr (.inr (.inr (.inr (.inr rfl))))),
    sources_entry m ρ c, weights_entry m ρ c, targets_entry m ρ c, ← weights_again]
  simp only [Cert.ReferenceIdeal.ReadP.val_main_v94, Cert.ReferenceIdeal.ReadP.val_main_v92, Cert.ReferenceIdeal.ReadP.val_main_cst_23, Cert.ReferenceIdeal.ReadP.val_main_v93, Cert.ReferenceIdeal.ReadP.val_main_v91, Cert.ReferenceIdeal.ReadP.val_main_v88, Cert.ReferenceIdeal.ReadP.val_main_v87, Cert.ReferenceIdeal.ReadP.val_main_v86, Cert.ReferenceIdeal.ReadP.val_main_v83, Cert.ReferenceIdeal.ReadP.val_main_v82, Cert.ReferenceIdeal.ReadP.val_main_c_21, Cert.ReferenceIdeal.ReadP.val_main_v85, Cert.ReferenceIdeal.ReadP.val_main_v84, Cert.ReferenceIdeal.ReadP.val_main_c_22, Cert.ReferenceIdeal.ReadP.val_main_v90, Cert.ReferenceIdeal.ReadP.val_main_v89]
  rfl

/-- The second bias at the fourth call's entry. -/
theorem bias2_entry : W8 m ρ c (Proc.devRef .tc main_arg4) = m ((c.tc : Thread nD τ).loc main_arg4) := by
  have h : W8 m ρ c (Proc.devRef .tc main_arg4) = W7 m ρ c (Proc.devRef .tc main_arg4) := by
    show StableHlo.after hostOps3 (W7 m ρ c) (Proc.devRef .tc main_arg4) = _
    walk_back []
  exact h.trans ((keep_third m ρ c main_arg4 (by decide)).trans
    ((back_to_entry m ρ c main_arg4 (by decide) (by decide) (.inr (.inr (.inl rfl)))).trans (arg_entry m ρ c main_arg4 (.inr (.inr (.inr (.inr rfl)))))))

/-- THE RESULT: after the fourth call the result buffer holds the reference's result as a function of the six arguments. -/
theorem result : W9 m ρ c (Proc.devRef .tc main_v64)
    = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((SecondEpilogue.final (V8 m ρ) c).trans
    ((congrArg₂ SecondEpilogue.biasLogSoftmax (aggregate2_exit m ρ c) (bias2_entry m ρ c)).trans
      (Cert.ReferenceIdeal.Stages.output _ _ _ _ _ _).symm))

end Cert.KernelIdeal.Walk

end
-- ==== Proof.lean ====
/-
  A two-layer graph convolution, its dense stages as four pipelined calls, against the same network
  written with host operations only.

  Both programs build the edge lists (the given edges followed by one self loop per node), count the
  in-degrees by a scatter-add of ones, take d = where(deg > 0, rsqrt deg, 0) and the edge weights
  d[source]·d[target], and then, per layer, multiply the node features by the weight matrix, gather the
  product's rows at the sources, scale them by the edge weights, add them into the targets' rows and add
  the bias; layer one ends with the maximum with zero, layer two with the log-softmax of each row. The
  kernel computes the edge weights once and does the two products, the bias-and-rectifier and the
  bias-and-log-softmax in calls over twenty blocks of 10000 rows; the reference recomputes the weights
  per layer and does everything on the host.

  On the extended reals the two are the same function of the arguments, operation by operation: a block
  product into a zero accumulator (its operands narrowed to bf16, which is the identity there) is the
  host's `dot_general` restricted to the block's rows; the blocks tile the rows; the host lines between
  the calls are the reference's own lines; the recomputed weights are the same term. No algebraic law of
  the extended reals beyond `b ≤ max`-fold is used, so the precondition is never opened.

  The frames of the two kernel programs are the generated ones; the reference's frame is its run with the
  result dropped; the ideal pass rewrote nothing, so `preserves` is `True`.
-/
import proofs.«153839_j89567247991122_1_alg».proof.Defs
import proofs.«153839_j89567247991122_1_alg».proof.Proof.Gen.Kernel
import proofs.«153839_j89567247991122_1_alg».proof.Proof.Gen.Kernel.Frame
import proofs.«153839_j89567247991122_1_alg».proof.Proof.Gen.KernelIdeal
import proofs.«153839_j89567247991122_1_alg».proof.Proof.Gen.KernelIdeal.Frame
import proofs.«153839_j89567247991122_1_alg».proof.Proof.Gen.ReferenceIdeal
import proofs.«153839_j89567247991122_1_alg».proof.Proof.Gen.Pre_finite_inputs
import proofs.«153839_j89567247991122_1_alg».proof.Proof.RefRead
import proofs.«153839_j89567247991122_1_alg».proof.Proof.KernelRun
import proofs.«153839_j89567247991122_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result buffer at the reference's last stage of the (agreeing) arguments. -/
theorem algebraic : Cert.algebraic_KernelIdeal_ReferenceIdeal := by
  intro m ρ m' ρ' _ hagree
  refine ⟨fun c => Cert.ReferenceIdeal.ReadP.val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v98_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
